-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S128x64 : Shape := ⟨2, ![128, 64]⟩
abbrev S5000x64 : Shape := ⟨2, ![5000, 64]⟩
abbrev S5000x1 : Shape := ⟨2, ![5000, 1]⟩
abbrev S5000x128 : Shape := ⟨2, ![5000, 128]⟩

abbrev nBuf : Space → Nat
  | .hbm => 62
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S_, .i32⟩
  | .hbm, ⟨15, _⟩ => ⟨S100000, .i32⟩
  | .hbm, ⟨16, _⟩ => ⟨S1600000x1, .i32⟩
  | .hbm, ⟨17, _⟩ => ⟨S100000, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .bf16⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64, .f32⟩
  | .hbm, ⟨42, _⟩ => ⟨S128x64, .f32⟩
  | .hbm, ⟨43, _⟩ => ⟨S100000x64, .f32⟩
  | .hbm, ⟨44, _⟩ => ⟨S100000x64, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .bf16⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S1x64, .f32⟩
  | .hbm, ⟨60, _⟩ => ⟨S128x64, .f32⟩
  | .hbm, ⟨61, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S128x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x64 : S_.BroadcastsInDim S100000x64 (![] : Fin 0 → Fin S100000x64.rank)
  shapeCasts_S64_S1x64 : S64.ShapeCasts S1x64
  concatenates_S64x64_S64x64_S128x64_d0 : Shape.Concatenates [S64x64, S64x64] S128x64 0
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v25) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  @main is four segments: the host operations that prepare the first layer's operands (the degree's reciprocal, the
  gathered-and-summed neighbour features, the stacked weights), the first layer's epilogue over twenty tiles of
  5000 nodes, the host operations that prepare the second layer's operands from the first layer's output, and the
  second layer's epilogue. The contents of every buffer at each of the five boundaries is a fold from the launch
  memory; the run ends with every unscoped buffer at the last boundary's contents. Here that final state is read
  at the result buffer as well as at the arguments, so that the value of the result can be computed from the fold.
-/
import proofs.«166276_j61220463837359_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run with its result named: from any memory with zero counters every weakly fair execution of @main terminates
    without a fault, and in every final state the result buffer holds what the last boundary of the run holds there
    (the second region's output array, its write-backs folded over the region's entry contents), while each argument
    array holds its launch contents. The result is read off the same final thread state as the arguments. -/
theorem run_result : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.BodyAt.lean ====
/-
  The epilogue kernel's stored value read at an index, over the extended reals.

  One tile of a layer holds 5000 rows. From the tile's blocks — the summed neighbour features a (5000 × 64), the root
  features h (5000 × 64), the reciprocal degree s (5000 × 1), the stacked weights w (128 × 64) and the bias row
  b (1 × 64) — the body scales each row of a by that row's s, joins it with the row of h into one row of 128
  numbers, multiplies by w and adds b; the first layer then clamps from below at 0. Entry (p, q) of what it stores
  is therefore Σ_{k < 128} c(p, k) · w(k, q) + b(0, q), where c(p, k) is a(p, k) · s(p, 0) for k < 64 and
  h(p, k − 64) for k ≥ 64 (a change of float format is the identity on extended reals).
-/
import proofs.«166276_j61220463837359_2_alg».proof.Proof.Gen.KernelIdeal.Skeleton
import proofs.«166276_j61220463837359_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- Entry k of the joined row: the scaled aggregate on positions below 64, the root features from 64 on. -/
def joined (a h : (⟨2, ![5000, 64]⟩ : Shape).Idx → EReal) (s : (⟨2, ![5000, 1]⟩ : Shape).Idx → EReal) (p : Fin 5000) (k : Fin 128) : EReal :=
  if hk : k.val < 64 then a (ix2 p ⟨k.val, hk⟩) * s (ix2 p 0) else h (ix2 p ⟨k.val - 64, by have := k.isLt; omega⟩)

/-- A column [5000, 1] spread over 64 columns, at (p, q), is the column's entry p. -/
theorem spread_col_apply (s : (⟨2, ![5000, 1]⟩ : Shape).Idx → EReal) (hb : (⟨2, ![5000, 1]⟩ : Shape).Broadcasts ⟨2, ![5000, 64]⟩) (p : Fin 5000) (q : Fin 64) :
    broadcastTo ⟨2, ![5000, 64]⟩ s hb (ix2 p q) = s (ix2 p 0) :=
  broadcastTo_apply s hb (ix2 p q) (ix2 p 0) (by
    intro a
    match a with
    | ⟨0, _⟩ => exact (if_neg (show ¬ ((5000 : Nat) = 1) by decide)).symm
    | ⟨1, _⟩ => exact (if_pos rfl).symm)

/-- Two 5000 × 64 pieces joined along the columns, at (p, k): the first piece for k < 64, the second at k − 64 otherwise. -/
theorem join_cols_apply (u v : (⟨2, ![5000, 64]⟩ : Shape).Idx → EReal)
    (hc : Shape.Concatenates [(⟨2, ![5000, 64]⟩ : Shape), ⟨2, ![5000, 64]⟩] ⟨2, ![5000, 128]⟩ 1) (p : Fin 5000) (k : Fin 128) :
    concatenate ⟨2, ![5000, 128]⟩ 1 [⟨⟨2, ![5000, 64]⟩, u⟩, ⟨⟨2, ![5000, 64]⟩, v⟩] hc (ix2 p k)
      = if hk : k.val < 64 then u (ix2 p ⟨k.val, hk⟩) else v (ix2 p ⟨k.val - 64, by have := k.isLt; omega⟩) := by
  by_cases hk : k.val < 64
  · rw [dif_pos hk]
    exact concatenate_pair_apply_left 1 u v hc (ix2 p k) rfl (ix2 p ⟨k.val, hk⟩) (by
      intro b
      match b with
      | ⟨0, _⟩ => rfl
      | ⟨1, _⟩ => rfl)
  · rw [dif_neg hk]
    exact concatenate_pair_apply_right 1 u v hc (ix2 p k) rfl rfl (ix2 p ⟨k.val - 64, by have := k.isLt; omega⟩) (by
      intro b hb
      match b, hb with
      | ⟨0, _⟩, _ => rfl
      | ⟨1, _⟩, hb => exact absurd rfl hb) (by
      show (k.val - 64) + 64 = k.val
      omega)

/-- The bias row [1, 64] spread over the 5000 rows, at (p, q), is the row's entry q. -/
theorem spread_row_apply (b : (⟨2, ![1, 64]⟩ : Shape).Idx → EReal) (hb : (⟨2, ![1, 64]⟩ : Shape).Broadcasts ⟨2, ![5000, 64]⟩) (p : Fin 5000) (q : Fin 64) :
    broadcastTo ⟨2, ![5000, 64]⟩ b hb (ix2 p q) = b (ix2 0 q) :=
  broadcastTo_1b_ab_apply b hb p q

/-- The printed dimension numbers of the tile's product are those of a plain 5000 × 128 by 128 × 64 product. -/
theorem dot_plain : dot_S5000x128_S128x64_S5000x64_1_0_0_1_n_n = DotDims.plain 5000 128 64 := rfl

/-- The tile's product into the zero accumulator, at (p, q): the sum over the 128 joined positions. -/
theorem product_apply (c : FVec Ideal S5000x128 .bf16) (w : FVec Ideal S128x64 .bf16) (p : Fin 5000) (q : Fin 64) :
    matmul dot_S5000x128_S128x64_S5000x64_1_0_0_1_n_n none c w (constant S5000x64 .f32 0x00000000#32) (ix2 p q)
      = ∑ k : Fin 128, c (ix2 p k) * w (ix2 k q) := by
  rw [dot_plain]
  exact PlainDot.matmul_zero_apply none c w p q

/-- The second layer's stored value at (p, q). -/
theorem pay1_apply (x0 x1 : Vec Ideal S5000x64 .f32) (x2 : Vec Ideal S5000x1 .f32) (x3 : Vec Ideal S128x64 .f32)
    (x4 : Vec Ideal S1x64 .f32) (p : Fin 5000) (q : Fin 64) :
    k1_pay1 (F := Ideal) x0 x2 x1 x3 x4 (ix2 p q) = (∑ k : Fin 128, joined x0 x1 x2 p k * x3 (ix2 k q)) + x4 (ix2 0 q) := by
  unfold k1_pay1
  refine (addf_apply _ _ _).trans ?_
  refine congrArg₂ (· + ·) ((product_apply _ _ p q).trans ?_)
    ((spread_row_apply _ _ p q).trans (congrFun (shapeCast_self x4 _) _))
  refine Finset.sum_congr rfl fun k _ => ?_
  refine congrArg₂ (· * ·) ?_ ((truncf_apply (φ := .f32) (ψ := .bf16) _ bitsLt_bf16_f32 _).trans (congrFun (shapeCast_self x3 _) _))
  refine (truncf_apply (φ := .f32) (ψ := .bf16) _ bitsLt_bf16_f32 _).trans ?_
  refine (join_cols_apply _ _ concatenates_S5000x64_S5000x64_S5000x128_d1 p k).trans ?_
  unfold joined
  by_cases hk : k.val < 64
  · rw [dif_pos hk, dif_pos hk]
    refine (mulf_apply _ _ _).trans ?_
    exact congrArg₂ (· * ·) (congrFun (shapeCast_self x0 _) _)
      ((spread_col_apply _ _ p ⟨k.val, hk⟩).trans (congrFun (shapeCast_self x2 _) _))
  · rw [dif_neg hk, dif_neg hk]
    exact congrFun (shapeCast_self x1 _) _

/-- The first layer's stored value at (p, q): the same, clamped from below at 0. -/
theorem pay0_apply (x0 x1 : Vec Ideal S5000x64 .f32) (x2 : Vec Ideal S5000x1 .f32) (x3 : Vec Ideal S128x64 .f32)
    (x4 : Vec Ideal S1x64 .f32) (p : Fin 5000) (q : Fin 64) :
    k0_pay1 (F := Ideal) x0 x2 x1 x3 x4 (ix2 p q)
      = max ((∑ k : Fin 128, joined x0 x1 x2 p k * x3 (ix2 k q)) + x4 (ix2 0 q)) (Ideal.ofBits .f32 0x00000000#32) := by
  unfold k0_pay1
  refine (maximumf_apply _ _ _).trans ?_
  refine congrArg₂ max ?_ rfl
  refine (addf_apply _ _ _).trans ?_
  refine congrArg₂ (· + ·) ((product_apply _ _ p q).trans ?_)
    ((spread_row_apply _ _ p q).trans (congrFun (shapeCast_self x4 _) _))
  refine Finset.sum_congr rfl fun k _ => ?_
  refine congrArg₂ (· * ·) ?_ ((truncf_apply (φ := .f32) (ψ := .bf16) _ bitsLt_bf16_f32 _).trans (congrFun (shapeCast_self x3 _) _))
  refine (truncf_apply (φ := .f32) (ψ := .bf16) _ bitsLt_bf16_f32 _).trans ?_
  refine (join_cols_apply _ _ concatenates_S5000x64_S5000x64_S5000x128_d1 p k).trans ?_
  unfold joined
  by_cases hk : k.val < 64
  · rw [dif_pos hk, dif_pos hk]
    refine (mulf_apply _ _ _).trans ?_
    exact congrArg₂ (· * ·) (congrFun (shapeCast_self x0 _) _)
      ((spread_col_apply _ _ p ⟨k.val, hk⟩).trans (congrFun (shapeCast_self x2 _) _))
  · rw [dif_neg hk, dif_neg hk]

end Cert.KernelIdeal.Body

end
-- ==== Proof.LayerFn.lean ====
/-
  One fused layer as a function of whole arrays, over the extended reals.

  For N = 100000 nodes: A holds each node's summed neighbour features (N × 64), H each node's own features (N × 64),
  S the reciprocal of each node's clamped in-degree as a column (N × 1), W the two weight matrices stacked (128 × 64)
  and B the bias as one row (1 × 64). Node r's joined row has A(r, k) · S(r, 0) on positions k < 64 and H(r, k − 64)
  on positions k ≥ 64; the layer's entry (r, j) is the sum over the 128 positions of the joined row times W(k, j),
  plus B(0, j). The first layer clamps that from below at 0.
-/
import Idealize.ShloMosaic.Lib.ValueIdx
import Idealize.ShloMosaic.PureOps.Ideal

noncomputable section

open scoped BigOperators

namespace Cert.Sage

open Idealize.ShloMosaic Idealize.ShloMosaic.ValueIdx

/-- An a × b array of extended reals. -/
abbrev Mat (a b : Nat) : Type := (⟨2, ![a, b]⟩ : Shape).Idx → EReal

/-- Entry k of node r's joined row. -/
def joinedRow (A H : Mat 100000 64) (S : Mat 100000 1) (r : Fin 100000) (k : Fin 128) : EReal :=
  if hk : k.val < 64 then A (ix2 r ⟨k.val, hk⟩) * S (ix2 r 0) else H (ix2 r ⟨k.val - 64, by have := k.isLt; omega⟩)

/-- The fused layer at node r and output feature j. -/
def fusedAt (A H : Mat 100000 64) (S : Mat 100000 1) (W : Mat 128 64) (B : Mat 1 64) (r : Fin 100000) (j : Fin 64) : EReal :=
  (∑ k : Fin 128, joinedRow A H S r k * W (ix2 k j)) + B (ix2 0 j)

/-- The fused layer as a whole array. -/
def fused (A H : Mat 100000 64) (S : Mat 100000 1) (W : Mat 128 64) (B : Mat 1 64) : Mat 100000 64 :=
  fun i => fusedAt A H S W B (i 0) (i 1)

/-- The fused layer clamped from below at zero, as a whole array. -/
def fusedRelu (A H : Mat 100000 64) (S : Mat 100000 1) (W : Mat 128 64) (B : Mat 1 64) : Mat 100000 64 :=
  fun i => max (fusedAt A H S W B (i 0) (i 1)) (Ideal.ofBits .f32 0x00000000#32)

theorem fused_ix2 (A H : Mat 100000 64) (S : Mat 100000 1) (W : Mat 128 64) (B : Mat 1 64) (r : Fin 100000) (j : Fin 64) :
    fused A H S W B (ix2 r j) = fusedAt A H S W B r j := rfl

theorem fusedRelu_ix2 (A H : Mat 100000 64) (S : Mat 100000 1) (W : Mat 128 64) (B : Mat 1 64) (r : Fin 100000) (j : Fin 64) :
    fusedRelu A H S W B (ix2 r j) = max (fusedAt A H S W B r j) (Ideal.ofBits .f32 0x00000000#32) := rfl

end Cert.Sage

end
-- ==== Proof.Region0.lean ====
/-
  The first layer's region: what its output array holds when the region ends, as a function of the arrays the region
  is entered with.

  The grid has 20 points; point t works on the rows 5000·t … 5000·t + 4999. Its blocks of the summed neighbour features,
  the root features, the reciprocal degree and the output are those rows; the stacked weights and the bias row are
  fetched whole. What the point writes back is therefore those rows of the fused layer of the WHOLE arrays: an entry of
  a row depends only on that row of the three per-node arrays. The twenty blocks tile the output, so the output array
  ends equal to the fused layer of the entry arrays, clamped from below at zero.
-/
import proofs.«166276_j61220463837359_2_alg».proof.Proof.Gen.KernelIdeal.Frame
import proofs.«166276_j61220463837359_2_alg».proof.Proof.BodyAt
import proofs.«166276_j61220463837359_2_alg».proof.Proof.LayerFn
import Idealize.ShloMosaic.Lib.Pipeline.Value

set_option maxRecDepth 16384

noncomputable section

open scoped BigOperators

namespace Cert.KernelIdeal.Region0

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the per-node windows and the output sit at block row t, the weights and
    the bias at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := lt_of_lt_of_eq t.isLt N_0

/-- Entry (p, q) of point t's block of a per-node N × 64 array is the array's entry (5000·t + p, q). -/
theorem emb_agg (t : Fin cfg0.N) (p : Fin 5000) (q : Fin 64) (h : t.val * 5000 + p.val < 100000) :
    ((cfg0.win 0).blk t).view.emb (ix2 p q) = ix2 ⟨t.val * 5000 + p.val, h⟩ q := by
  obtain ⟨e00, e01, e10, e11, e20, e21, e30, e31, e40, e41, e50, e51⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 64 + 1 * q.val = q.val; omega
theorem emb_root (t : Fin cfg0.N) (p : Fin 5000) (q : Fin 64) (h : t.val * 5000 + p.val < 100000) :
    ((cfg0.win 1).blk t).view.emb (ix2 p q) = ix2 ⟨t.val * 5000 + p.val, h⟩ q := by
  obtain ⟨e00, e01, e10, e11, e20, e21, e30, e31, e40, e41, e50, e51⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 64 + 1 * q.val = q.val; omega
theorem emb_out (t : Fin cfg0.N) (p : Fin 5000) (q : Fin 64) (h : t.val * 5000 + p.val < 100000) :
    ((cfg0.win 5).blk t).view.emb (ix2 p q) = ix2 ⟨t.val * 5000 + p.val, h⟩ q := by
  obtain ⟨e00, e01, e10, e11, e20, e21, e30, e31, e40, e41, e50, e51⟩ := idx_facts t
  funext a; apply Fin.ext
  match a with
  | ⟨0, _⟩ => show win0_5.index t (0 : Fin 2) * 5000 + 1 * p.val = t.val * 5000 + p.val; omega
  | ⟨1, _⟩ => show win0_5.index t (1 : Fin 2) * 64 + 1 * q.val = q.val; omega
/-- Entry (p, 0) of point t's block of the reciprocal-degree column is the column's entry (5000·t + p, 0). -/
theorem emb_deg (t : Fin cfg0.N) (p : Fin 5000) (h : t.val * 5000 + p.val < 100000) :
    ((cfg0.win 2).blk t).view.emb (ix2 p (0 : Fin 1)) = ix2 ⟨t.val * 5000 + p.val, h⟩ (0 : Fin 1) := by
  obtain ⟨e00, e01, e10, e11, e20, e21, e30, e31, e40, e41, e50, e51⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega
/-- The weights' and the bias row's blocks are the whole arrays. -/
theorem emb_wts (t : Fin cfg0.N) (k : Fin 128) (q : Fin 64) :
    ((cfg0.win 3).blk t).view.emb (ix2 k q) = ix2 k q := by
  obtain ⟨e00, e01, e10, e11, e20, e21, e30, e31, e40, e41, e50, e51⟩ := idx_facts t
  funext a; apply Fin.ext
  match a with
  | ⟨0, _⟩ => show win0_3.index t (0 : Fin 2) * 128 + 1 * k.val = k.val; omega
  | ⟨1, _⟩ => show win0_3.index t (1 : Fin 2) * 64 + 1 * q.val = q.val; omega
theorem emb_bias (t : Fin cfg0.N) (q : Fin 64) :
    ((cfg0.win 4).blk t).view.emb (ix2 (0 : Fin 1) q) = ix2 (0 : Fin 1) q := by
  obtain ⟨e00, e01, e10, e11, e20, e21, e30, e31, e40, e41, e50, e51⟩ := idx_facts t
  funext a; apply Fin.ext
  match a with
  | ⟨0, _⟩ => show win0_4.index t (0 : Fin 2) * 1 + 1 * 0 = 0; omega
  | ⟨1, _⟩ => show win0_4.index t (1 : Fin 2) * 64 + 1 * q.val = q.val; omega

/-- What point t writes back is block t of the fused layer of the arrays the region is entered with. -/
theorem flushed_eq (c : Dev nD) (t : Fin cfg0.N) :
    (dat0 V c).flushed 5 t = ((cfg0.win 5).blk t).view.read (Elt Ideal)
      (fusedRelu (V c main_v25) (V c main_arg0) (V c main_v13) (V c main_v27) (V c main_v26)) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S5000x1) zero_offsets,
    View.ld_unit_zero (S := S128x64) zero_offsets, View.ld_unit_zero (S := S1x64) zero_offsets]
  funext j
  obtain ⟨p, q, rfl⟩ : ∃ (p : Fin 5000) (q : Fin 64), j = ix2 p q := ⟨j 0, j 1, eq_ix2 j⟩
  have ht := point_lt t
  have hr : t.val * 5000 + p.val < 100000 := by have := p.isLt; omega
  show k0_pay1 (iblk0 V c 0 t) (iblk0 V c 2 t) (iblk0 V c 1 t) (iblk0 V c 3 t) (iblk0 V c 4 t) (ix2 p q)
    = fusedRelu (V c main_v25) (V c main_arg0) (V c main_v13) (V c main_v27) (V c main_v26) (((cfg0.win 5).blk t).view.emb (ix2 p q))
  rw [emb_out t p q hr]
  refine (pay0_apply (iblk0 V c 0 t) (iblk0 V c 1 t) (iblk0 V c 2 t) (iblk0 V c 3 t) (iblk0 V c 4 t) p q).trans ?_
  refine congrArg₂ max ?_ rfl
  refine congrArg₂ (· + ·) (Finset.sum_congr rfl fun k _ => congrArg₂ (· * ·) ?_ ?_) ?_
  · unfold joined joinedRow
    by_cases hk : k.val < 64
    · rw [dif_pos hk, dif_pos hk]
      exact congrArg₂ (· * ·) (congrArg (V c main_v25) (emb_agg t p ⟨k.val, hk⟩ hr)) (congrArg (V c main_v13) (emb_deg t p hr))
    · rw [dif_neg hk, dif_neg hk]
      exact congrArg (V c main_arg0) (emb_root t p ⟨k.val - 64, by have := k.isLt; omega⟩ hr)
  · exact congrArg (V c main_v27) (emb_wts t k q)
  · exact congrArg (V c main_v26) (emb_bias t q)

/-- An index of the output array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- Row r of the output lies in the block of point r / 5000, which writes back. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 5000 < cfg0.N := lt_of_lt_of_eq (by omega : (i 0).val / 5000 < 20) N_0.symm
  refine ⟨⟨(i 0).val / 5000, hN⟩, flush0_5 _, ?_⟩
  rw [mem_blk]
  obtain ⟨e00, e01, e10, e11, e20, e21, e30, e31, e40, e41, e50, e51⟩ := idx_facts ⟨(i 0).val / 5000, hN⟩
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, hN⟩ (1 : Fin 2) * 64 ≤ (i 1).val ∧ (i 1).val < win0_5.index ⟨(i 0).val / 5000, hN⟩ (1 : Fin 2) * 64 + 64
    rw [e51]
    omega

/-- The output array when the region ends: the fused layer of the arrays the region is entered with. -/
theorem final (c : Dev nD) :
    (dat0 V c).arrAt 5 cfg0.N = fusedRelu (V c main_v25) (V c main_arg0) (V c main_v13) (V c main_v27) (V c main_v26) :=
  (dat0 V c).arrAt_eq_of_cover 5 _ (fun t _ => flushed_eq V c t) cover

end Cert.KernelIdeal.Region0

end
-- ==== Proof.Region1.lean ====
/-
  The second layer's region: what its output array holds when the region ends, as a function of the arrays the region
  is entered with.

  The grid has 20 points; point t works on the rows 5000·t … 5000·t + 4999. Its blocks of the summed neighbour features,
  the root features, the reciprocal degree and the output are those rows; the stacked weights and the bias row are
  fetched whole. What the point writes back is therefore those rows of the fused layer of the WHOLE arrays: an entry of
  a row depends only on that row of the three per-node arrays. The twenty blocks tile the output, so the output array
  ends equal to the fused layer of the entry arrays.
-/
import proofs.«166276_j61220463837359_2_alg».proof.Proof.Gen.KernelIdeal.Frame
import proofs.«166276_j61220463837359_2_alg».proof.Proof.BodyAt
import proofs.«166276_j61220463837359_2_alg».proof.Proof.LayerFn
import Idealize.ShloMosaic.Lib.Pipeline.Value

set_option maxRecDepth 16384

noncomputable section

open scoped BigOperators

namespace Cert.KernelIdeal.Region1

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the per-node windows and the output sit at block row t, the weights and
    the bias at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := lt_of_lt_of_eq t.isLt N_1

/-- Entry (p, q) of point t's block of a per-node N × 64 array is the array's entry (5000·t + p, q). -/
theorem emb_agg (t : Fin cfg1.N) (p : Fin 5000) (q : Fin 64) (h : t.val * 5000 + p.val < 100000) :
    ((cfg1.win 0).blk t).view.emb (ix2 p q) = ix2 ⟨t.val * 5000 + p.val, h⟩ q := by
  obtain ⟨e00, e01, e10, e11, e20, e21, e30, e31, e40, e41, e50, e51⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega
theorem emb_root (t : Fin cfg1.N) (p : Fin 5000) (q : Fin 64) (h : t.val * 5000 + p.val < 100000) :
    ((cfg1.win 1).blk t).view.emb (ix2 p q) = ix2 ⟨t.val * 5000 + p.val, h⟩ q := by
  obtain ⟨e00, e01, e10, e11, e20, e21, e30, e31, e40, e41, e50, e51⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 64 + 1 * q.val = q.val; omega
theorem emb_out (t : Fin cfg1.N) (p : Fin 5000) (q : Fin 64) (h : t.val * 5000 + p.val < 100000) :
    ((cfg1.win 5).blk t).view.emb (ix2 p q) = ix2 ⟨t.val * 5000 + p.val, h⟩ q := by
  obtain ⟨e00, e01, e10, e11, e20, e21, e30, e31, e40, e41, e50, e51⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 64 + 1 * q.val = q.val; omega
/-- Entry (p, 0) of point t's block of the reciprocal-degree column is the column's entry (5000·t + p, 0). -/
theorem emb_deg (t : Fin cfg1.N) (p : Fin 5000) (h : t.val * 5000 + p.val < 100000) :
    ((cfg1.win 2).blk t).view.emb (ix2 p (0 : Fin 1)) = ix2 ⟨t.val * 5000 + p.val, h⟩ (0 : Fin 1) := by
  obtain ⟨e00, e01, e10, e11, e20, e21, e30, e31, e40, e41, e50, e51⟩ := idx_facts t
  funext a; apply Fin.ext
  match a with
  | ⟨0, _⟩ => show win1_2.index t (0 : Fin 2) * 5000 + 1 * p.val = t.val * 5000 + p.val; omega
  | ⟨1, _⟩ => show win1_2.index t (1 : Fin 2) * 1 + 1 * 0 = 0; omega
/-- The weights' and the bias row's blocks are the whole arrays. -/
theorem emb_wts (t : Fin cfg1.N) (k : Fin 128) (q : Fin 64) :
    ((cfg1.win 3).blk t).view.emb (ix2 k q) = ix2 k q := by
  obtain ⟨e00, e01, e10, e11, e20, e21, e30, e31, e40, e41, e50, e51⟩ := idx_facts t
  funext a; apply Fin.ext
  match a with
  | ⟨0, _⟩ => show win1_3.index t (0 : Fin 2) * 128 + 1 * k.val = k.val; omega
  | ⟨1, _⟩ => show win1_3.index t (1 : Fin 2) * 64 + 1 * q.val = q.val; omega
theorem emb_bias (t : Fin cfg1.N) (q : Fin 64) :
    ((cfg1.win 4).blk t).view.emb (ix2 (0 : Fin 1) q) = ix2 (0 : Fin 1) q := by
  obtain ⟨e00, e01, e10, e11, e20, e21, e30, e31, e40, e41, e50, e51⟩ := idx_facts t
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-- What point t writes back is block t of the fused layer of the arrays the region is entered with. -/
theorem flushed_eq (c : Dev nD) (t : Fin cfg1.N) :
    (dat1 V c).flushed 5 t = ((cfg1.win 5).blk t).view.read (Elt Ideal)
      (fused (V c main_v40) (V c main_v28) (V c main_v13) (V c main_v42) (V c main_v41)) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S5000x1) zero_offsets,
    View.ld_unit_zero (S := S128x64) zero_offsets, View.ld_unit_zero (S := S1x64) zero_offsets]
  funext j
  obtain ⟨p, q, rfl⟩ : ∃ (p : Fin 5000) (q : Fin 64), j = ix2 p q := ⟨j 0, j 1, eq_ix2 j⟩
  have ht := point_lt t
  have hr : t.val * 5000 + p.val < 100000 := by have := p.isLt; omega
  show k1_pay1 (iblk1 V c 0 t) (iblk1 V c 2 t) (iblk1 V c 1 t) (iblk1 V c 3 t) (iblk1 V c 4 t) (ix2 p q)
    = fused (V c main_v40) (V c main_v28) (V c main_v13) (V c main_v42) (V c main_v41) (((cfg1.win 5).blk t).view.emb (ix2 p q))
  rw [emb_out t p q hr]
  refine (pay1_apply (iblk1 V c 0 t) (iblk1 V c 1 t) (iblk1 V c 2 t) (iblk1 V c 3 t) (iblk1 V c 4 t) p q).trans ?_
  refine congrArg₂ (· + ·) (Finset.sum_congr rfl fun k _ => congrArg₂ (· * ·) ?_ ?_) ?_
  · unfold joined joinedRow
    by_cases hk : k.val < 64
    · rw [dif_pos hk, dif_pos hk]
      exact congrArg₂ (· * ·) (congrArg (V c main_v40) (emb_agg t p ⟨k.val, hk⟩ hr)) (congrArg (V c main_v13) (emb_deg t p hr))
    · rw [dif_neg hk, dif_neg hk]
      exact congrArg (V c main_v28) (emb_root t p ⟨k.val - 64, by have := k.isLt; omega⟩ hr)
  · exact congrArg (V c main_v42) (emb_wts t k q)
  · exact congrArg (V c main_v41) (emb_bias t q)

/-- An index of the output array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v43).slice (win1_5.rect t)).set ↔ _
  rw [View.set_slice_whole, Rect.mem_set_unit]
  exact Iff.rfl

/-- Row r of the output lies in the block of point r / 5000, which writes back. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 5000 < cfg1.N := lt_of_lt_of_eq (by omega : (i 0).val / 5000 < 20) N_1.symm
  refine ⟨⟨(i 0).val / 5000, hN⟩, flush1_5 _, ?_⟩
  rw [mem_blk]
  obtain ⟨e00, e01, e10, e11, e20, e21, e30, e31, e40, e41, e50, e51⟩ := idx_facts ⟨(i 0).val / 5000, hN⟩
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    rw [e51]
    omega

/-- The output array when the region ends: the fused layer of the arrays the region is entered with. -/
theorem final (c : Dev nD) :
    (dat1 V c).arrAt 5 cfg1.N = fused (V c main_v40) (V c main_v28) (V c main_v13) (V c main_v42) (V c main_v41) :=
  (dat1 V c).arrAt_eq_of_cover 5 _ (fun t _ => flushed_eq V c t) cover

end Cert.KernelIdeal.Region1

end
-- ==== Proof.HostTerms.lean ====
/-
  The host operations of the idealized kernel's @main, named.

  From the edge list (a 2 × E array of node numbers, E = 1600000) the host takes the edges' sources (row 0, with
  negative numbers wrapped by N = 100000) and destinations (row 1). For node features h it gathers each edge's source
  row and adds it into the edge's destination row (the summed neighbour features); it counts each node's incoming
  edges by adding the integer one per edge into a vector of integer zeros, converts the count to a float, clamps it
  from below at 1 and takes the reciprocal (as a column); it stacks a layer's two weight matrices and views the bias
  as one row. These are the arrays each layer's region is entered with.
-/
import proofs.«166276_j61220463837359_2_alg».proof.Proof.Gen.KernelIdeal.Launch
import Idealize.ShloMosaic.Lib.StableHlo.Run
import Idealize.ShloMosaic.PureOps.Ideal
import Idealize.ShloMosaic.PureOps.Ideal.Laws

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- The edges' destinations: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- The edges' sources as given: row 0 of the edge list. -/
def srcOf (e : IVec S2x1600000 32) : IVec S1600000 32 :=
  shapeCast S1600000 (extractStridedSlice S1x1600000 ![0, 0] e slices_S2x1600000_S1x1600000_0_0) shapeCasts_S1x1600000_S1600000

/-- A vector of E node numbers as an E × 1 array of index vectors. -/
def asIndex (v : IVec S1600000 32) : IVec S1600000x1 32 :=
  broadcastInDim S1600000x1 ![0] bcast_S1600000_S1600000x1_0 v

/-- A negative source number counts from the end: N is added to it. -/
def wrapNeg (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The summed neighbour features: each edge's source row of h added into the edge's destination row of zeros. -/
def aggOf (dst src : IVec S1600000 32) (h : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (asIndex dst)
    (extf (F := Ideal) .f32 (Host.gather gather_S100000x64_S1600000x1_S1600000x64_1_0_n_n_0_1_164
      (truncf (F := Ideal) .bf16 h bitsLt_bf16_f32) (asIndex (wrapNeg src))) bitsLt_bf16_f32)

/-- The reciprocal of each node's in-degree clamped from below at 1, the degree counted in integers. -/
def invOf (dst : IVec S1600000 32) : FVec Ideal S100000 .f32 :=
  Host.divf (F := Ideal) (broadcastInDim S100000 ![] bcast_S_S100000 (constant (F := Ideal) S_ .f32 0x3F800000#32))
    (maximumf (F := Ideal)
      (sitofp (F := Ideal) .f32 (Host.scatter scatter_S100000_S1600000x1_S1600000_n_0_0_1 IntOp.addi
        (broadcastInDim S100000 ![] bcast_S_S100000 (constantI S_ 32 0#32)) (asIndex dst)
        (broadcastInDim S1600000 ![] bcast_S_S1600000 (constantI S_ 32 1#32))))
      (broadcastInDim S100000 ![] bcast_S_S100000 (constant (F := Ideal) S_ .f32 0x3F800000#32)))

/-- The same as a column [N, 1]. -/
def invColOf (dst : IVec S1600000 32) : FVec Ideal S100000x1 .f32 :=
  broadcastInDim S100000x1 ![0] bcast_S100000_S100000x1_0 (invOf dst)

/-- A layer's two weight matrices stacked along the rows. -/
def stackOf (wl wr : FVec Ideal S64x64 .f32) : FVec Ideal S128x64 .f32 :=
  concatenate S128x64 0 [⟨S64x64, wl⟩, ⟨S64x64, wr⟩] concatenates_S64x64_S64x64_S128x64_d0

/-- The bias as one row. -/
def rowOf (b : FVec Ideal S64 .f32) : FVec Ideal S1x64 .f32 := shapeCast S1x64 b shapeCasts_S64_S1x64

variable (W : Valuation τ sig (Elt Ideal))

/-! ## What the first stretch of host operations leaves, from any contents -/

set_option maxHeartbeats 8000000 in
theorem ops0_src : (StableHlo.after hostOps0 W (Proc.devRef .tc main_v1) : IVec S1600000 32) = srcOf (W (Proc.devRef .tc main_arg1)) := by
  after_results; rfl
set_option maxHeartbeats 8000000 in
theorem ops0_dst : (StableHlo.after hostOps0 W (Proc.devRef .tc main_v3) : IVec S1600000 32) = dstOf (W (Proc.devRef .tc main_arg1)) := by
  after_results; rfl
set_option maxHeartbeats 8000000 in
theorem ops0_agg : (StableHlo.after hostOps0 W (Proc.devRef .tc main_v25) : FVec Ideal S100000x64 .f32)
    = aggOf (dstOf (W (Proc.devRef .tc main_arg1))) (srcOf (W (Proc.devRef .tc main_arg1))) (W (Proc.devRef .tc main_arg0)) := by
  after_results; rfl
set_option maxHeartbeats 8000000 in
theorem ops0_inv : (StableHlo.after hostOps0 W (Proc.devRef .tc main_v13) : FVec Ideal S100000x1 .f32)
    = invColOf (dstOf (W (Proc.devRef .tc main_arg1))) := by
  after_results; rfl
set_option maxHeartbeats 8000000 in
theorem ops0_stack : (StableHlo.after hostOps0 W (Proc.devRef .tc main_v27) : FVec Ideal S128x64 .f32)
    = stackOf (W (Proc.devRef .tc main_arg2)) (W (Proc.devRef .tc main_arg4)) := by
  after_results; rfl
set_option maxHeartbeats 8000000 in
theorem ops0_row : (StableHlo.after hostOps0 W (Proc.devRef .tc main_v26) : FVec Ideal S1x64 .f32)
    = rowOf (W (Proc.devRef .tc main_arg3)) := by
  after_results; rfl

/-! ## What the second stretch of host operations leaves, from any contents -/

theorem ops1_agg : (StableHlo.after hostOps1 W (Proc.devRef .tc main_v40) : FVec Ideal S100000x64 .f32)
    = aggOf (W (Proc.devRef .tc main_v3)) (W (Proc.devRef .tc main_v1)) (W (Proc.devRef .tc main_v28)) := by
  after_results; rfl
theorem ops1_stack : (StableHlo.after hostOps1 W (Proc.devRef .tc main_v42) : FVec Ideal S128x64 .f32)
    = stackOf (W (Proc.devRef .tc main_arg5)) (W (Proc.devRef .tc main_arg7)) := by
  after_results; rfl
theorem ops1_row : (StableHlo.after hostOps1 W (Proc.devRef .tc main_v41) : FVec Ideal S1x64 .f32)
    = rowOf (W (Proc.devRef .tc main_arg6)) := by
  after_results; rfl

/-! ## Buffers a stretch does not write are left as they were -/

theorem ops0_keep_arg0 : StableHlo.after hostOps0 W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops0_keep_arg5 : StableHlo.after hostOps0 W (Proc.devRef .tc main_arg5) = W (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops0_keep_arg6 : StableHlo.after hostOps0 W (Proc.devRef .tc main_arg6) = W (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops0_keep_arg7 : StableHlo.after hostOps0 W (Proc.devRef .tc main_arg7) = W (Proc.devRef .tc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops1_keep_out0 : StableHlo.after hostOps1 W (Proc.devRef .tc main_v28) = W (Proc.devRef .tc main_v28) :=
  StableHlo.after_of_forall_not_mem (b := Proc.devRef .tc main_v28) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops1_keep_inv : StableHlo.after hostOps1 W (Proc.devRef .tc main_v13) = W (Proc.devRef .tc main_v13) :=
  StableHlo.after_of_forall_not_mem (b := Proc.devRef .tc main_v13) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.Host

end
-- ==== Proof.KernelValue.lean ====
/-
  The idealized kernel's result as one function of its arguments.

  The run's last boundary holds, at the result buffer, the second region's output array. That array is the fused
  layer of the arrays the second region is entered with: the summed neighbour features of the first layer's output,
  that output itself, the reciprocal-degree column, the second layer's stacked weights and bias row. The first
  layer's output is what the first region leaves: the fused layer, clamped from below at zero, of the summed
  neighbour features of the input, the input, the same reciprocal-degree column and the first layer's stacked
  weights and bias row. Every host operation is read back to the launch contents of the arguments.
-/
import proofs.«166276_j61220463837359_2_alg».proof.Proof.Gen.KernelIdeal.Frame
import proofs.«166276_j61220463837359_2_alg».proof.Proof.Region0
import proofs.«166276_j61220463837359_2_alg».proof.Proof.Region1
import proofs.«166276_j61220463837359_2_alg».proof.Proof.HostTerms

set_option maxRecDepth 16384

noncomputable section

namespace Cert.KernelIdeal.KValue

open Cert.KernelIdeal Cert.KernelIdeal.Gen Cert.KernelIdeal.Host Cert.Sage
open Idealize.ShloMosaic Idealize.ShloMosaic.TcCoe Idealize.SL.Sem

/-- The first layer's output as the first region leaves it. -/
def hiddenK (e : IVec S2x1600000 32) (x : FVec Ideal S100000x64 .f32) (wl wr : FVec Ideal S64x64 .f32) (b : FVec Ideal S64 .f32) :
    FVec Ideal S100000x64 .f32 :=
  fusedRelu (aggOf (dstOf e) (srcOf e) x) x (invColOf (dstOf e)) (stackOf wl wr) (rowOf b)

/-- The result as the second region leaves it. -/
def outK (e : IVec S2x1600000 32) (x : FVec Ideal S100000x64 .f32) (w1l : FVec Ideal S64x64 .f32) (b1 : FVec Ideal S64 .f32)
    (w1r w2l : FVec Ideal S64x64 .f32) (b2 : FVec Ideal S64 .f32) (w2r : FVec Ideal S64x64 .f32) : FVec Ideal S100000x64 .f32 :=
  fused (aggOf (dstOf e) (srcOf e) (hiddenK e x w1l w1r b1)) (hiddenK e x w1l w1r b1) (invColOf (dstOf e)) (stackOf w2l w2r) (rowOf b2)

theorem fusedRelu_congr {A A' H H' : Mat 100000 64} {S S' : Mat 100000 1} {W W' : Mat 128 64} {B B' : Mat 1 64}
    (hA : A = A') (hH : H = H') (hS : S = S') (hW : W = W') (hB : B = B') : fusedRelu A H S W B = fusedRelu A' H' S' W' B' := by
  subst hA hH hS hW hB; rfl

theorem fused_congr {A A' H H' : Mat 100000 64} {S S' : Mat 100000 1} {W W' : Mat 128 64} {B B' : Mat 1 64}
    (hA : A = A') (hH : H = H') (hS : S = S') (hW : W = W') (hB : B = B') : fused A H S W B = fused A' H' S' W' B' := by
  subst hA hH hS hW hB; rfl

variable (m : (ℓ : Loc nD τ sig) → Buf (Elt Ideal) ℓ) (ρ : Dev nD → PrngReg)

/-- At the first region's exit the first layer's output buffer holds the first layer's output. -/
theorem hidden_at_exit (c : Dev nD) :
    (W2 m ρ c (Proc.devRef .tc main_v28) : FVec Ideal S100000x64 .f32)
      = hiddenK (m ((c.tc : Thread nD τ).loc main_arg1)) (m ((c.tc : Thread nD τ).loc main_arg0))
          (m ((c.tc : Thread nD τ).loc main_arg2)) (m ((c.tc : Thread nD τ).loc main_arg4)) (m ((c.tc : Thread nD τ).loc main_arg3)) :=
  (W2_arr m ρ c 5).trans ((Region0.final (V1 m ρ) c).trans
    (fusedRelu_congr (ops0_agg (W0 m ρ c)) (ops0_keep_arg0 (W0 m ρ c)) (ops0_inv (W0 m ρ c)) (ops0_stack (W0 m ρ c))
      (ops0_row (W0 m ρ c))))

/-- At the first region's exit the edge endpoints, the degree column and the second layer's parameters are as the
    first stretch of host operations left them (the region writes none of them: the degree column is one of its
    input windows, the others it does not touch). -/
theorem dst_at_exit (c : Dev nD) :
    (W2 m ρ c (Proc.devRef .tc main_v3) : IVec S1600000 32) = dstOf (m ((c.tc : Thread nD τ).loc main_arg1)) :=
  (W2_of_ne m ρ c main_v3 (by decide)).trans (ops0_dst (W0 m ρ c))
theorem src_at_exit (c : Dev nD) :
    (W2 m ρ c (Proc.devRef .tc main_v1) : IVec S1600000 32) = srcOf (m ((c.tc : Thread nD τ).loc main_arg1)) :=
  (W2_of_ne m ρ c main_v1 (by decide)).trans (ops0_src (W0 m ρ c))
theorem inv_at_exit (c : Dev nD) :
    (W2 m ρ c (Proc.devRef .tc main_v13) : FVec Ideal S100000x1 .f32) = invColOf (dstOf (m ((c.tc : Thread nD τ).loc main_arg1))) :=
  (W2_arr m ρ c 2).trans (((dat0 (V1 m ρ) c).arrAt_in 2 rfl _).trans ((A_eq0 (V1 m ρ) c 2).trans (ops0_inv (W0 m ρ c))))
theorem w2l_at_exit (c : Dev nD) :
    (W2 m ρ c (Proc.devRef .tc main_arg5) : FVec Ideal S64x64 .f32) = m ((c.tc : Thread nD τ).loc main_arg5) :=
  (W2_of_ne m ρ c main_arg5 (by decide)).trans (ops0_keep_arg5 (W0 m ρ c))
theorem b2_at_exit (c : Dev nD) :
    (W2 m ρ c (Proc.devRef .tc main_arg6) : FVec Ideal S64 .f32) = m ((c.tc : Thread nD τ).loc main_arg6) :=
  (W2_of_ne m ρ c main_arg6 (by decide)).trans (ops0_keep_arg6 (W0 m ρ c))
theorem w2r_at_exit (c : Dev nD) :
    (W2 m ρ c (Proc.devRef .tc main_arg7) : FVec Ideal S64x64 .f32) = m ((c.tc : Thread nD τ).loc main_arg7) :=
  (W2_of_ne m ρ c main_arg7 (by decide)).trans (ops0_keep_arg7 (W0 m ρ c))

/-- The last boundary of the run holds, at the result buffer, the two layers of the launch arguments. -/
theorem result_at_end (c : Dev nD) :
    (W4 m ρ c (Proc.devRef .tc main_v43) : FVec Ideal S100000x64 .f32)
      = outK (m ((c.tc : Thread nD τ).loc main_arg1)) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (W4_arr m ρ c 5).trans ((Region1.final (V3 m ρ) c).trans (fused_congr ?_ ?_ ?_ ?_ ?_))
  · refine (ops1_agg (W2 m ρ c)).trans ?_
    rw [dst_at_exit m ρ c, src_at_exit m ρ c, hidden_at_exit m ρ c]
  · exact (ops1_keep_out0 (W2 m ρ c)).trans (hidden_at_exit m ρ c)
  · exact (ops1_keep_inv (W2 m ρ c)).trans (inv_at_exit m ρ c)
  · refine (ops1_stack (W2 m ρ c)).trans ?_
    rw [w2l_at_exit m ρ c, w2r_at_exit m ρ c]
  · refine (ops1_row (W2 m ρ c)).trans ?_
    rw [b2_at_exit m ρ c]

end Cert.KernelIdeal.KValue

end
-- ==== Proof.Bridge.lean ====
/-
  The fused layer is the two-product layer.

  With the stacked weights W = [wl; wr] (wl on rows 0 … 63, wr on rows 64 … 127), the reciprocal degree as a column
  and the bias as one row, node r's joined row times W is
      Σ_{k<64} (A(r,k) · s(r)) · wl(k,j)  +  Σ_{k<64} H(r,k) · wr(k,j),
  because a sum over 128 positions is the sum over the first 64 plus the sum over the last 64. Adding the bias and
  regrouping (addition of extended reals is associative and commutative — no finiteness is needed, both sides have
  the same terms) gives the reference's  ((A ⊙ s) · wl + b) + H · wr  entry by entry.
-/
import proofs.«166276_j61220463837359_2_alg».proof.Proof.LayerFn
import proofs.«166276_j61220463837359_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage

open Idealize.ShloMosaic Idealize.ShloMosaic.ValueIdx

/-- A vector of N numbers as a column [N, 1], at (r, 0), is its entry r. -/
theorem col_apply (v : (⟨1, ![100000]⟩ : Shape).Idx → EReal)
    (h : (⟨1, ![100000]⟩ : Shape).BroadcastsInDim ⟨2, ![100000, 1]⟩ ![0]) (r : Fin 100000) :
    broadcastInDim ⟨2, ![100000, 1]⟩ ![0] h v (ix2 r (0 : Fin 1)) = v (ix1 r) :=
  broadcastInDim_apply ![0] h v (ix2 r (0 : Fin 1)) (ix1 r) (by
    intro a
    match a with
    | ⟨0, _⟩ => exact (if_neg (show ¬ ((100000 : Nat) = 1) by decide)).symm)

/-- A column [N, 1] spread over 64 columns, at (r, k), is the column's entry (r, 0). -/
theorem col_spread_apply (v : Mat 100000 1)
    (h : (⟨2, ![100000, 1]⟩ : Shape).BroadcastsInDim ⟨2, ![100000, 64]⟩ ![0, 1]) (r : Fin 100000) (k : Fin 64) :
    broadcastInDim ⟨2, ![100000, 64]⟩ ![0, 1] h v (ix2 r k) = v (ix2 r (0 : Fin 1)) :=
  broadcastInDim_apply ![0, 1] h v (ix2 r k) (ix2 r (0 : Fin 1)) (by
    intro a
    match a with
    | ⟨0, _⟩ => exact (if_neg (show ¬ ((100000 : Nat) = 1) by decide)).symm
    | ⟨1, _⟩ => exact (if_pos rfl).symm)

/-- A vector of 64 numbers as a row [1, 64] (by broadcast along the new leading axis), at (0, j), is its entry j. -/
theorem row_apply (b : (⟨1, ![64]⟩ : Shape).Idx → EReal)
    (h : (⟨1, ![64]⟩ : Shape).BroadcastsInDim ⟨2, ![1, 64]⟩ ![1]) (j : Fin 64) :
    broadcastInDim ⟨2, ![1, 64]⟩ ![1] h b (ix2 (0 : Fin 1) j) = b (ix1 j) :=
  broadcastInDim_apply ![1] h b (ix2 (0 : Fin 1) j) (ix1 j) (by
    intro a
    match a with
    | ⟨0, _⟩ => exact (if_neg (show ¬ ((64 : Nat) = 1) by decide)).symm)

/-- A row [1, 64] spread over the N rows, at (r, j), is the row's entry (0, j). -/
theorem row_spread_apply (v : Mat 1 64)
    (h : (⟨2, ![1, 64]⟩ : Shape).BroadcastsInDim ⟨2, ![100000, 64]⟩ ![0, 1]) (r : Fin 100000) (j : Fin 64) :
    broadcastInDim ⟨2, ![100000, 64]⟩ ![0, 1] h v (ix2 r j) = v (ix2 (0 : Fin 1) j) :=
  broadcastInDim_apply ![0, 1] h v (ix2 r j) (ix2 (0 : Fin 1) j) (by
    intro a
    match a with
    | ⟨0, _⟩ => exact (if_pos rfl).symm
    | ⟨1, _⟩ => exact (if_neg (show ¬ ((64 : Nat) = 1) by decide)).symm)

/-- Two 64 × 64 matrices stacked along the rows, at (k, j): the first for k < 64, the second at k − 64 otherwise. -/
theorem stack_rows_apply (wl wr : Mat 64 64)
    (hc : Shape.Concatenates [(⟨2, ![64, 64]⟩ : Shape), ⟨2, ![64, 64]⟩] ⟨2, ![128, 64]⟩ 0) (k : Fin 128) (j : Fin 64) :
    concatenate ⟨2, ![128, 64]⟩ 0 [⟨⟨2, ![64, 64]⟩, wl⟩, ⟨⟨2, ![64, 64]⟩, wr⟩] hc (ix2 k j)
      = if hk : k.val < 64 then wl (ix2 ⟨k.val, hk⟩ j) else wr (ix2 ⟨k.val - 64, by have := k.isLt; omega⟩ j) := by
  by_cases hk : k.val < 64
  · rw [dif_pos hk]
    exact concatenate_pair_apply_left 0 wl wr hc (ix2 k j) rfl (ix2 ⟨k.val, hk⟩ j) (by
      intro b
      match b with
      | ⟨0, _⟩ => rfl
      | ⟨1, _⟩ => rfl)
  · rw [dif_neg hk]
    exact concatenate_pair_apply_right 0 wl wr hc (ix2 k j) rfl rfl (ix2 ⟨k.val - 64, by have := k.isLt; omega⟩ j) (by
      intro b hb
      match b, hb with
      | ⟨0, _⟩, hb => exact absurd rfl hb
      | ⟨1, _⟩, _ => rfl) (by
      show (k.val - 64) + 64 = k.val
      omega)

/-- A sum over 128 positions is the sum over positions k < 64 plus the sum over positions 64 + k. -/
theorem sum_split (f : Fin 128 → EReal) :
    ∑ k : Fin 128, f k = (∑ k : Fin 64, f ⟨k.val, by have := k.isLt; omega⟩) + ∑ k : Fin 64, f ⟨64 + k.val, by have := k.isLt; omega⟩ := by
  have h := Fin.sum_univ_add (a := 64) (b := 64) (fun k : Fin (64 + 64) => f k)
  exact h

/-- The fused entry against the two-product entry, for one node and one output feature. -/
theorem fused_entry (a h : Fin 64 → EReal) (s : EReal) (wl wr : Fin 64 → EReal) (b : EReal)
    (c w : Fin 128 → EReal)
    (hc : ∀ k : Fin 128, c k = if hk : k.val < 64 then a ⟨k.val, hk⟩ * s else h ⟨k.val - 64, by have := k.isLt; omega⟩)
    (hw : ∀ k : Fin 128, w k = if hk : k.val < 64 then wl ⟨k.val, hk⟩ else wr ⟨k.val - 64, by have := k.isLt; omega⟩) :
    (∑ k : Fin 128, c k * w k) + b = ((∑ k : Fin 64, (a k * s) * wl k) + b) + ∑ k : Fin 64, h k * wr k := by
  rw [sum_split, add_right_comm]
  refine congrArg₂ (· + ·) (congrArg (· + b) (Finset.sum_congr rfl fun k _ => ?_)) (Finset.sum_congr rfl fun k _ => ?_)
  · have hk : (⟨k.val, by have := k.isLt; omega⟩ : Fin 128).val < 64 := k.isLt
    rw [hc, hw, dif_pos hk, dif_pos hk]
  · have hk : ¬ (⟨64 + k.val, by have := k.isLt; omega⟩ : Fin 128).val < 64 := by show ¬ (64 + k.val < 64); omega
    rw [hc, hw, dif_neg hk, dif_neg hk]
    have e : (⟨(⟨64 + k.val, by have := k.isLt; omega⟩ : Fin 128).val - 64, by have := k.isLt; show 64 + k.val - 64 < 64; omega⟩ : Fin 64) = k :=
      Fin.ext (by show 64 + k.val - 64 = k.val; omega)
    rw [e]

variable (A H : Mat 100000 64) (inv : (⟨1, ![100000]⟩ : Shape).Idx → EReal) (wl wr : Mat 64 64)
  (b : (⟨1, ![64]⟩ : Shape).Idx → EReal)
  (hcol : (⟨1, ![100000]⟩ : Shape).BroadcastsInDim ⟨2, ![100000, 1]⟩ ![0])
  (hcat : Shape.Concatenates [(⟨2, ![64, 64]⟩ : Shape), ⟨2, ![64, 64]⟩] ⟨2, ![128, 64]⟩ 0)
  (hrow : (⟨1, ![64]⟩ : Shape).ShapeCasts ⟨2, ![1, 64]⟩)
  (hcol2 : (⟨2, ![100000, 1]⟩ : Shape).BroadcastsInDim ⟨2, ![100000, 64]⟩ ![0, 1])
  (hrow1 : (⟨1, ![64]⟩ : Shape).BroadcastsInDim ⟨2, ![1, 64]⟩ ![1])
  (hrow2 : (⟨2, ![1, 64]⟩ : Shape).BroadcastsInDim ⟨2, ![100000, 64]⟩ ![0, 1])
  (d : DotDims ⟨2, ![100000, 64]⟩ ⟨2, ![64, 64]⟩ ⟨2, ![100000, 64]⟩) (hd : d = DotDims.plain 100000 64 64)

/-- The two-product layer as the host computes it: ((A ⊙ s) · wl + b) + H · wr. -/
def twoProduct : Mat 100000 64 :=
  addf (F := Ideal) (φ := .f32)
    (addf (F := Ideal) (φ := .f32)
      (Host.dotGeneral (F := Ideal) (φ₁ := .f32) (φ₂ := .f32) d none
        (mulf (F := Ideal) (φ := .f32) A (broadcastInDim ⟨2, ![100000, 64]⟩ ![0, 1] hcol2 (broadcastInDim ⟨2, ![100000, 1]⟩ ![0] hcol inv))) wl)
      (broadcastInDim ⟨2, ![100000, 64]⟩ ![0, 1] hrow2 (broadcastInDim ⟨2, ![1, 64]⟩ ![1] hrow1 b)))
    (Host.dotGeneral (F := Ideal) (φ₁ := .f32) (φ₂ := .f32) d none H wr)

include hd in
/-- The two-product layer at (r, j). -/
theorem twoProduct_apply (r : Fin 100000) (j : Fin 64) :
    twoProduct A H inv wl wr b hcol hcol2 hrow1 hrow2 d (ix2 r j)
      = ((∑ k : Fin 64, (A (ix2 r k) * inv (ix1 r)) * wl (ix2 k j)) + b (ix1 j)) + ∑ k : Fin 64, H (ix2 r k) * wr (ix2 k j) := by
  subst hd
  unfold twoProduct
  refine (addf_apply _ _ _).trans ?_
  refine congrArg₂ (· + ·) ((addf_apply _ _ _).trans (congrArg₂ (· + ·) ?_ ?_)) ?_
  · refine (PlainDot.dotGeneral_apply none .single _ wl r j).trans (Finset.sum_congr rfl fun k _ => ?_)
    refine congrArg (· * wl (ix2 k j)) ((mulf_apply _ _ _).trans (congrArg (A (ix2 r k) * ·) ?_))
    exact (col_spread_apply _ hcol2 r k).trans (col_apply inv hcol r)
  · exact (row_spread_apply _ hrow2 r j).trans (row_apply b hrow1 j)
  · exact PlainDot.dotGeneral_apply none .single H wr r j

include hd in
/-- The fused layer of the stacked weights, the degree column and the bias row is the two-product layer. -/
theorem fused_eq_twoProduct :
    fused A H (broadcastInDim ⟨2, ![100000, 1]⟩ ![0] hcol inv)
        (concatenate ⟨2, ![128, 64]⟩ 0 [⟨⟨2, ![64, 64]⟩, wl⟩, ⟨⟨2, ![64, 64]⟩, wr⟩] hcat) (shapeCast ⟨2, ![1, 64]⟩ b hrow)
      = twoProduct A H inv wl wr b hcol hcol2 hrow1 hrow2 d := by
  funext i
  obtain ⟨r, j, rfl⟩ : ∃ (r : Fin 100000) (j : Fin 64), i = ix2 r j := ⟨i 0, i 1, eq_ix2 i⟩
  rw [twoProduct_apply A H inv wl wr b hcol hcol2 hrow1 hrow2 d hd r j, fused_ix2]
  unfold fusedAt
  rw [shapeCast_a_1a_apply b hrow (0 : Fin 1) j]
  refine fused_entry (fun k => A (ix2 r k)) (fun k => H (ix2 r k)) (inv (ix1 r)) (fun k => wl (ix2 k j)) (fun k => wr (ix2 k j))
    (b (ix1 j)) _ _ (fun k => ?_) (fun k => ?_)
  · unfold joinedRow
    by_cases hk : k.val < 64
    · rw [dif_pos hk, dif_pos hk, col_apply inv hcol r]
    · rw [dif_neg hk, dif_neg hk]
  · exact stack_rows_apply wl wr hcat k j

include hd in
/-- The same with the clamp from below at zero (the first layer). -/
theorem fusedRelu_eq_twoProduct :
    fusedRelu A H (broadcastInDim ⟨2, ![100000, 1]⟩ ![0] hcol inv)
        (concatenate ⟨2, ![128, 64]⟩ 0 [⟨⟨2, ![64, 64]⟩, wl⟩, ⟨⟨2, ![64, 64]⟩, wr⟩] hcat) (shapeCast ⟨2, ![1, 64]⟩ b hrow)
      = fun i => max (twoProduct A H inv wl wr b hcol hcol2 hrow1 hrow2 d i) (Ideal.ofBits .f32 0x00000000#32) := by
  funext i
  exact congrArg (max · (Ideal.ofBits .f32 0x00000000#32))
    (congrFun (fused_eq_twoProduct A H inv wl wr b hcol hcat hrow hcol2 hrow1 hrow2 d hd) i)

end Cert.Sage

end
-- ==== Proof.RefSide.lean ====
/-
  The reference's result as named functions of its arguments.

  The reference counts each node's incoming edges by adding the float one per edge into a vector of float zeros,
  clamps the count from below at 1 and takes the reciprocal; it gathers each edge's source row of the features and
  adds it into the edge's destination row; a layer is ((A ⊙ s) · wl + b) + H · wr on the summed neighbour features A,
  the reciprocal degree s and the node features H; the first layer's output is clamped from below at 0 and is the
  second layer's input. The generated run states the result as one composed term; here that term is folded into
  these named functions.
-/
import proofs.«166276_j61220463837359_2_alg».proof.Proof.Gen.ReferenceIdeal.Run
import proofs.«166276_j61220463837359_2_alg».proof.Proof.Bridge
import Idealize.ShloMosaic.PureOps.Ideal
import Idealize.ShloMosaic.PureOps.Ideal.Laws

set_option maxRecDepth 16384

noncomputable section

namespace Cert.ReferenceIdeal.RefValue

open Cert.ReferenceIdeal Cert.ReferenceIdeal.Gen Cert.ReferenceIdeal.Value Cert.Sage
open Idealize.ShloMosaic Idealize.ShloMosaic.TcCoe Idealize.SL.Sem

/-- The edges' destinations: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- The edges' sources as given: row 0 of the edge list. -/
def srcOf (e : IVec S2x1600000 32) : IVec S1600000 32 :=
  shapeCast S1600000 (extractStridedSlice S1x1600000 ![0, 0] e slices_S2x1600000_S1x1600000_0_0) shapeCasts_S1x1600000_S1600000

/-- A vector of E node numbers as an E × 1 array of index vectors. -/
def asIndex (v : IVec S1600000 32) : IVec S1600000x1 32 :=
  broadcastInDim S1600000x1 ![0] bcast_S1600000_S1600000x1_0 v

/-- A negative source number counts from the end: N is added to it. -/
def wrapNeg (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The summed neighbour features: each edge's source row of h added into the edge's destination row of zeros. -/
def aggOf (dst src : IVec S1600000 32) (h : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (asIndex dst)
    (Host.gather gather_S100000x64_S1600000x1_S1600000x64_1_0_n_n_0_1_164 h (asIndex (wrapNeg src)))

/-- The reciprocal of each node's in-degree clamped from below at 1, the degree counted in floats. -/
def invOf (dst : IVec S1600000 32) : FVec Ideal S100000 .f32 :=
  Host.divf (F := Ideal) (broadcastInDim S100000 ![] bcast_S_S100000 (constant (F := Ideal) S_ .f32 0x3F800000#32))
    (maximumf (F := Ideal)
      (Host.scatterAdd (F := Ideal) scatter_S100000_S1600000x1_S1600000_n_0_0_1
        (broadcastInDim S100000 ![] bcast_S_S100000 (constant (F := Ideal) S_ .f32 0x00000000#32)) (asIndex dst)
        (broadcastInDim S1600000 ![] bcast_S_S1600000 (constant (F := Ideal) S_ .f32 0x3F800000#32)))
      (broadcastInDim S100000 ![] bcast_S_S100000 (constant (F := Ideal) S_ .f32 0x3F800000#32)))

/-- One layer: ((A ⊙ s) · wl + b) + H · wr. -/
def layer (A H : FVec Ideal S100000x64 .f32) (inv : FVec Ideal S100000 .f32) (wl wr : FVec Ideal S64x64 .f32)
    (b : FVec Ideal S64 .f32) : FVec Ideal S100000x64 .f32 :=
  twoProduct A H inv wl wr b bcast_S100000_S100000x1_0 bcast_S100000x1_S100000x64_0_1 bcast_S64_S1x64_1
    bcast_S1x64_S100000x64_0_1 dot_S100000x64_S64x64_S100000x64_1_0_0_1_n_n

/-- The all-zero N × 64 array the first layer is clamped against. -/
def zeros : FVec Ideal S100000x64 .f32 :=
  broadcastInDim S100000x64 ![] bcast_S_S100000x64 (constant (F := Ideal) S_ .f32 0x00000000#32)

/-- The first layer's output: the layer on the input features, clamped from below at 0. -/
def hidden (e : IVec S2x1600000 32) (x : FVec Ideal S100000x64 .f32) (wl wr : FVec Ideal S64x64 .f32) (b : FVec Ideal S64 .f32) :
    FVec Ideal S100000x64 .f32 :=
  maximumf (F := Ideal) (layer (aggOf (dstOf e) (srcOf e) x) x (invOf (dstOf e)) wl wr b) zeros

/-- The two layers. -/
def out (e : IVec S2x1600000 32) (x : FVec Ideal S100000x64 .f32) (w1l : FVec Ideal S64x64 .f32) (b1 : FVec Ideal S64 .f32)
    (w1r w2l : FVec Ideal S64x64 .f32) (b2 : FVec Ideal S64 .f32) (w2r : FVec Ideal S64x64 .f32) : FVec Ideal S100000x64 .f32 :=
  layer (aggOf (dstOf e) (srcOf e) (hidden e x w1l w1r b1)) (hidden e x w1l w1r b1) (invOf (dstOf e)) w2l w2r b2

/-- The printed dimension numbers of the reference's products are those of a plain N × 64 by 64 × 64 product. -/
theorem dot_plain : dot_S100000x64_S64x64_S100000x64_1_0_0_1_n_n = DotDims.plain 100000 64 64 := rfl

set_option maxHeartbeats 4000000 in
/-- The generated run's result term is the two layers of the arguments. -/
theorem res_eq (m : (ℓ : Loc nD τ sig) → Buf (Elt Ideal) ℓ) (c : Dev nD) :
    res_main_v50 (F := Ideal) m c
      = out (m ((c.tc : Thread nD τ).loc main_arg1)) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold res_main_v50 out hidden layer twoProduct aggOf invOf zeros asIndex wrapNeg dstOf srcOf
  rfl

end Cert.ReferenceIdeal.RefValue

end
-- ==== Proof.LibScatterCount.lean ====
/-
  Counting by scatter: an integer scatter-add of ones into zeros, read as a signed 32-bit
  integer, is the number of update positions whose result index is the element at hand, as long
  as there are fewer than 2^31 updates; converted to an extended real it is therefore the exact
  (float-side) scatter-add of ones into zeros.
-/
import Idealize.ShloMosaic.PureOps.Ideal

noncomputable section

namespace Idealize.ShloMosaic.ScatterCount

open scoped BigOperators

variable {s si u : Shape} {w : Nat}

/-- One step of the integer scatter of ones: the update at row-major position n adds one to the
    element its result index names, and is dropped when that index lies outside the operand. -/
def step (d : ScatterDims s si u) (idx : IVec si w) (r : s.Idx → BitVec 32) (n : Fin u.numel) :
    s.Idx → BitVec 32 :=
  match d.resultIdx? (u.rowMajor.symm n) idx with
  | some i => fun i' => if i' = i then IntOp.addi (r i) (1#32) else r i'
  | none => r

/-- The integer scatter of ones is the left fold of that step over all row-major positions. -/
theorem scatter_eq_foldl (d : ScatterDims s si u) (idx : IVec si w) (x : s.Idx → BitVec 32) :
    Host.scatter d IntOp.addi x idx (fun _ => (1#32 : BitVec 32))
      = (List.finRange u.numel).foldl (step d idx) x := rfl

/-- Pointwise, one step adds the 0/1 indicator of "position n lands on i". -/
theorem step_apply (d : ScatterDims s si u) (idx : IVec si w) (r : s.Idx → BitVec 32) (n : Fin u.numel)
    (i : s.Idx) :
    step d idx r n i
      = r i + BitVec.ofNat 32 (if d.resultIdx? (u.rowMajor.symm n) idx = some i then 1 else 0) := by
  unfold step
  cases h : d.resultIdx? (u.rowMajor.symm n) idx with
  | none => simp
  | some k =>
    by_cases hik : i = k
    · subst hik
      simp [IntOp.addi]
    · have hki : ¬ k = i := fun e => hik e.symm
      simp [hik, hki]

/-- Folding the step over any list of positions, from any start, adds at each element the number
    of listed positions that land on it (as a 32-bit word). -/
theorem foldl_step (d : ScatterDims s si u) (idx : IVec si w) (l : List (Fin u.numel))
    (r : s.Idx → BitVec 32) (i : s.Idx) :
    l.foldl (step d idx) r i
      = r i + BitVec.ofNat 32
          (l.countP fun n => decide (d.resultIdx? (u.rowMajor.symm n) idx = some i)) := by
  induction l generalizing r with
  | nil => simp
  | cons n l ih =>
    rw [List.foldl_cons, ih, step_apply, List.countP_cons]
    by_cases h : d.resultIdx? (u.rowMajor.symm n) idx = some i
    · simp only [h, if_true, decide_true]
      rw [BitVec.add_assoc, ← BitVec.ofNat_add, Nat.add_comm]
    · simp only [h, if_false, decide_false]
      simp

/-- Over the list of all positions of Fin n, in order, counting a predicate is the cardinality
    of the subset it cuts out. -/
theorem countP_finRange (n : Nat) (p : Fin n → Prop) [DecidablePred p] :
    (List.finRange n).countP (fun k => decide (p k)) = (Finset.univ.filter p).card := by
  rw [List.countP_eq_length_filter]
  simp [Finset.card, Finset.filter, Fin.univ_def]

/-- The positions (in row-major numbering) landing on i correspond one-to-one, through the
    row-major bijection, to the update indices landing on i. -/
theorem card_rowMajor (d : ScatterDims s si u) (idx : IVec si w) (i : s.Idx) :
    (Finset.univ.filter fun n : Fin u.numel => d.resultIdx? (u.rowMajor.symm n) idx = some i).card
      = (Finset.univ.filter fun j : u.Idx => d.resultIdx? j idx = some i).card :=
  Finset.card_equiv u.rowMajor.symm (by intro n; simp)

/-- The number of update indices landing on any one element is at most the number of updates. -/
theorem card_le_numel (d : ScatterDims s si u) (idx : IVec si w) (i : s.Idx) :
    (Finset.univ.filter fun j : u.Idx => d.resultIdx? j idx = some i).card ≤ u.numel := by
  rw [← card_rowMajor]
  calc _ ≤ (Finset.univ : Finset (Fin u.numel)).card := Finset.card_filter_le _ _
    _ = u.numel := by simp

/-- A natural number below 2^31, as a 32-bit word read signed, is itself. -/
theorem toInt_ofNat_of_lt {k : Nat} (hk : k < 2 ^ 31) : (BitVec.ofNat 32 k).toInt = (k : ℤ) := by
  have h32 : k % 2 ^ 32 = k := Nat.mod_eq_of_lt (by omega)
  rw [BitVec.toInt, BitVec.toNat_ofNat, h32]
  split <;> omega

/-- The integer scatter-add of ones into zeros holds, at each element, the number of update
    indices that land on it, as a 32-bit word. -/
theorem scatter_ones_eq_ofNat (d : ScatterDims s si u) (idx : IVec si w) (i : s.Idx) :
    Host.scatter d IntOp.addi (fun _ => (0#32 : BitVec 32)) idx (fun _ => (1#32 : BitVec 32)) i
      = BitVec.ofNat 32 (Finset.univ.filter fun j : u.Idx => d.resultIdx? j idx = some i).card := by
  rw [scatter_eq_foldl, foldl_step, countP_finRange, card_rowMajor]
  simp

/-- Read signed, that word is the count itself when there are fewer than 2^31 updates: the count
    is at most the number of updates, so it neither wraps nor reads negative. -/
theorem scatter_ones_toInt (d : ScatterDims s si u) (idx : IVec si w) (hu : u.numel < 2 ^ 31) (i : s.Idx) :
    (Host.scatter d IntOp.addi (fun _ => (0#32 : BitVec 32)) idx (fun _ => (1#32 : BitVec 32)) i).toInt
      = ((Finset.univ.filter (fun j : u.Idx => d.resultIdx? j idx = some i)).card : ℤ) := by
  rw [scatter_ones_eq_ofNat]
  exact toInt_ofNat_of_lt (lt_of_le_of_lt (card_le_numel d idx i) hu)

/-- Over the extended reals the integer count, converted to a float, equals the float scatter-add
    of ones into zeros: both are the number of update indices landing on each element. -/
theorem degree_eq (d : ScatterDims s si u) (idx : IVec si w) (hu : u.numel < 2 ^ 31) :
    sitofp (F := Ideal) .f32 (Host.scatter d IntOp.addi (fun _ => (0#32 : BitVec 32)) idx (fun _ => (1#32 : BitVec 32)))
      = Host.scatterAdd (F := Ideal) (φ := .f32) d (fun _ => (0 : EReal)) idx (fun _ => (1 : EReal)) := by
  funext i
  show (((Host.scatter d IntOp.addi (fun _ => (0#32 : BitVec 32)) idx (fun _ => (1#32 : BitVec 32)) i).toInt : ℝ) : EReal)
      = (0 : EReal) + ∑ j ∈ Finset.univ.filter (fun j : u.Idx => d.resultIdx? j idx = some i), (1 : EReal)
  rw [scatter_ones_toInt d idx hu i, Finset.sum_const, nsmul_one, zero_add, Int.cast_natCast,
    EReal.coe_natCast]

end Idealize.ShloMosaic.ScatterCount
-- ==== Proof.TwoSides.lean ====
/-
  The two programs compute one function of the arguments.

  Edge endpoints and the gather-then-add aggregation are the same operations in both programs (a change of float
  format around the gather is the identity on extended reals). The in-degree counted in 32-bit integers and
  converted equals the in-degree counted in floats, because there are fewer than 2^31 edges. With those, a fused
  layer over the stacked weights is the two-product layer (the sum over 128 joined positions splits into the two
  sums over 64), first for the clamped first layer and then for the second layer applied to the first one's output.
-/
import proofs.«166276_j61220463837359_2_alg».proof.Proof.KernelValue
import proofs.«166276_j61220463837359_2_alg».proof.Proof.RefSide
import proofs.«166276_j61220463837359_2_alg».proof.Proof.Bridge
import proofs.«166276_j61220463837359_2_alg».proof.Proof.LibScatterCount
import Idealize.ShloMosaic.Lib.IdealHost

set_option maxRecDepth 16384

noncomputable section

namespace Cert.Proof.TwoSides

open Idealize.ShloMosaic Cert.Sage

/-- Both programs read the edges' destinations and sources the same way. -/
theorem dst_eq (e : IVec Cert.KernelIdeal.S2x1600000 32) :
    Cert.KernelIdeal.Host.dstOf e = Cert.ReferenceIdeal.RefValue.dstOf e := rfl
theorem src_eq (e : IVec Cert.KernelIdeal.S2x1600000 32) :
    Cert.KernelIdeal.Host.srcOf e = Cert.ReferenceIdeal.RefValue.srcOf e := rfl

/-- The summed neighbour features: the kernel's gather goes through a narrower float format and back, which is the
    identity on extended reals. -/
theorem agg_eq (dst src : IVec Cert.KernelIdeal.S1600000 32) (h : FVec Ideal Cert.KernelIdeal.S100000x64 .f32) :
    Cert.KernelIdeal.Host.aggOf dst src h = Cert.ReferenceIdeal.RefValue.aggOf dst src h := rfl

/-- The reciprocal clamped in-degree: the integer count converted is the float count. -/
theorem inv_eq (dst : IVec Cert.KernelIdeal.S1600000 32) :
    Cert.KernelIdeal.Host.invOf dst = Cert.ReferenceIdeal.RefValue.invOf dst := by
  have hu : Cert.KernelIdeal.S1600000.numel < 2 ^ 31 := by decide
  have z : (fun _ => (0 : EReal)) = (broadcastInDim Cert.ReferenceIdeal.S100000 ![] Cert.ReferenceIdeal.Facts₀.bcast_S_S100000
      (constant (F := Ideal) Cert.ReferenceIdeal.S_ .f32 0x00000000#32) : FVec Ideal Cert.ReferenceIdeal.S100000 .f32) :=
    funext fun _ => Ideal.ofBits_zero_f32.symm
  have o : (fun _ => (1 : EReal)) = (broadcastInDim Cert.ReferenceIdeal.S1600000 ![] Cert.ReferenceIdeal.Facts₀.bcast_S_S1600000
      (constant (F := Ideal) Cert.ReferenceIdeal.S_ .f32 0x3F800000#32) : FVec Ideal Cert.ReferenceIdeal.S1600000 .f32) :=
    funext fun _ => Ideal.ofBits_one_f32.symm
  have key : sitofp (F := Ideal) .f32 (Host.scatter Cert.KernelIdeal.scatter_S100000_S1600000x1_S1600000_n_0_0_1 IntOp.addi
        (broadcastInDim Cert.KernelIdeal.S100000 ![] Cert.KernelIdeal.Facts₀.bcast_S_S100000 (constantI Cert.KernelIdeal.S_ 32 0#32))
        (Cert.KernelIdeal.Host.asIndex dst)
        (broadcastInDim Cert.KernelIdeal.S1600000 ![] Cert.KernelIdeal.Facts₀.bcast_S_S1600000 (constantI Cert.KernelIdeal.S_ 32 1#32)))
      = Host.scatterAdd (F := Ideal) (φ := .f32) Cert.ReferenceIdeal.scatter_S100000_S1600000x1_S1600000_n_0_0_1
        (broadcastInDim Cert.ReferenceIdeal.S100000 ![] Cert.ReferenceIdeal.Facts₀.bcast_S_S100000 (constant (F := Ideal) Cert.ReferenceIdeal.S_ .f32 0x00000000#32))
        (Cert.ReferenceIdeal.RefValue.asIndex dst)
        (broadcastInDim Cert.ReferenceIdeal.S1600000 ![] Cert.ReferenceIdeal.Facts₀.bcast_S_S1600000 (constant (F := Ideal) Cert.ReferenceIdeal.S_ .f32 0x3F800000#32)) := by
    refine (ScatterCount.degree_eq Cert.KernelIdeal.scatter_S100000_S1600000x1_S1600000_n_0_0_1 (Cert.KernelIdeal.Host.asIndex dst) hu).trans ?_
    exact congrArg₂ (fun a b => Host.scatterAdd (F := Ideal) (φ := .f32) Cert.ReferenceIdeal.scatter_S100000_S1600000x1_S1600000_n_0_0_1 a
      (Cert.ReferenceIdeal.RefValue.asIndex dst) b) z o
  unfold Cert.KernelIdeal.Host.invOf Cert.ReferenceIdeal.RefValue.invOf
  rw [key]

variable (e : IVec Cert.KernelIdeal.S2x1600000 32) (x : FVec Ideal Cert.KernelIdeal.S100000x64 .f32)

/-- The first layer's output is the same array in both programs. -/
theorem hidden_eq (wl wr : FVec Ideal Cert.KernelIdeal.S64x64 .f32) (b : FVec Ideal Cert.KernelIdeal.S64 .f32) :
    Cert.KernelIdeal.KValue.hiddenK e x wl wr b = Cert.ReferenceIdeal.RefValue.hidden e x wl wr b := by
  refine (fusedRelu_eq_twoProduct (Cert.KernelIdeal.Host.aggOf (Cert.KernelIdeal.Host.dstOf e) (Cert.KernelIdeal.Host.srcOf e) x) x
    (Cert.KernelIdeal.Host.invOf (Cert.KernelIdeal.Host.dstOf e)) wl wr b Cert.KernelIdeal.Facts₀.bcast_S100000_S100000x1_0
    Cert.KernelIdeal.Facts₀.concatenates_S64x64_S64x64_S128x64_d0 Cert.KernelIdeal.Facts₀.shapeCasts_S64_S1x64
    Cert.ReferenceIdeal.Facts₀.bcast_S100000x1_S100000x64_0_1 Cert.ReferenceIdeal.Facts₀.bcast_S64_S1x64_1 Cert.ReferenceIdeal.Facts₀.bcast_S1x64_S100000x64_0_1
    Cert.ReferenceIdeal.dot_S100000x64_S64x64_S100000x64_1_0_0_1_n_n Cert.ReferenceIdeal.RefValue.dot_plain).trans ?_
  rw [agg_eq, inv_eq, dst_eq, src_eq]
  rfl

/-- The result is the same array in both programs. -/
theorem out_eq (w1l : FVec Ideal Cert.KernelIdeal.S64x64 .f32) (b1 : FVec Ideal Cert.KernelIdeal.S64 .f32)
    (w1r w2l : FVec Ideal Cert.KernelIdeal.S64x64 .f32) (b2 : FVec Ideal Cert.KernelIdeal.S64 .f32)
    (w2r : FVec Ideal Cert.KernelIdeal.S64x64 .f32) :
    Cert.KernelIdeal.KValue.outK e x w1l b1 w1r w2l b2 w2r = Cert.ReferenceIdeal.RefValue.out e x w1l b1 w1r w2l b2 w2r := by
  refine (fused_eq_twoProduct
    (Cert.KernelIdeal.Host.aggOf (Cert.KernelIdeal.Host.dstOf e) (Cert.KernelIdeal.Host.srcOf e) (Cert.KernelIdeal.KValue.hiddenK e x w1l w1r b1))
    (Cert.KernelIdeal.KValue.hiddenK e x w1l w1r b1)
    (Cert.KernelIdeal.Host.invOf (Cert.KernelIdeal.Host.dstOf e)) w2l w2r b2 Cert.KernelIdeal.Facts₀.bcast_S100000_S100000x1_0
    Cert.KernelIdeal.Facts₀.concatenates_S64x64_S64x64_S128x64_d0 Cert.KernelIdeal.Facts₀.shapeCasts_S64_S1x64
    Cert.ReferenceIdeal.Facts₀.bcast_S100000x1_S100000x64_0_1 Cert.ReferenceIdeal.Facts₀.bcast_S64_S1x64_1 Cert.ReferenceIdeal.Facts₀.bcast_S1x64_S100000x64_0_1
    Cert.ReferenceIdeal.dot_S100000x64_S64x64_S100000x64_1_0_0_1_n_n Cert.ReferenceIdeal.RefValue.dot_plain).trans ?_
  rw [hidden_eq, agg_eq, inv_eq, dst_eq, src_eq]
  rfl

end Cert.Proof.TwoSides

end
-- ==== Proof.lean ====
/- The proof of `Cert.Claim` (proofs.«166276_j61220463837359_2_alg».proof.Defs): a two-layer mean-aggregation graph
   convolution (N = 100000 nodes, 64 features, E = 1600000 edges) whose per-node epilogue — scale the summed neighbour
   features by the reciprocal degree, join with the node's own features, one 128-wide product with the stacked weights,
   add the bias, clamp the first layer at zero — runs as a tiled kernel, against the reference's
   ((A ⊙ s) · wl + b) + H · wr.

   The three frame claims: the two kernel programs by their generated frame certificates, the reference by its
   generated run with the result dropped. The idealization rewrote nothing, so `preserves` is trivial.
   The algebraic claim: the idealized kernel's run is read at its result buffer (Proof/KernelRun.lean); that buffer holds
   the second region's output, each region's output is the fused layer of the region's entry arrays
   (Proof/BodyAt.lean for an entry of a tile, Proof/Region0.lean and Proof/Region1.lean for the twenty tiles), and the
   host operations are read back to the arguments (Proof/HostTerms.lean, Proof/KernelValue.lean). The reference's run
   gives its result as two two-product layers (Proof/RefSide.lean). The two agree (Proof/TwoSides.lean): the degree
   counted in 32-bit integers and converted is the degree counted in floats since E < 2^31
   (Proof/LibScatterCount.lean), and a sum over the 128 joined positions is the sum over the first 64 plus the sum
   over the last 64, regrouped with the bias by associativity and commutativity of addition on the extended reals
   (Proof/Bridge.lean). No finiteness of the inputs is used. -/
import proofs.«166276_j61220463837359_2_alg».proof.Defs
import proofs.«166276_j61220463837359_2_alg».proof.Proof.Gen.Kernel
import proofs.«166276_j61220463837359_2_alg».proof.Proof.Gen.Kernel.Frame
import proofs.«166276_j61220463837359_2_alg».proof.Proof.Gen.KernelIdeal
import proofs.«166276_j61220463837359_2_alg».proof.Proof.Gen.KernelIdeal.Frame
import proofs.«166276_j61220463837359_2_alg».proof.Proof.Gen.ReferenceIdeal
import proofs.«166276_j61220463837359_2_alg».proof.Proof.Gen.Pre_finite_inputs
import proofs.«166276_j61220463837359_2_alg».proof.Proof.Gen.ReferenceIdeal.Run
import proofs.«166276_j61220463837359_2_alg».proof.Proof.KernelRun
import proofs.«166276_j61220463837359_2_alg».proof.Proof.KernelValue
import proofs.«166276_j61220463837359_2_alg».proof.Proof.RefSide
import proofs.«166276_j61220463837359_2_alg».proof.Proof.TwoSides
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at the two layers of the arguments: the kernel's result buffer holds
    the second region's output, the reference's its composed term, and the two are one function of arguments that
    agree. -/
theorem algebraic : Cert.algebraic_KernelIdeal_ReferenceIdeal := by
  intro m ρ m' ρ' _ hagree
  refine ⟨fun c => Cert.KernelIdeal.Gen.W4 m ρ c (Proc.devRef .tc Cert.KernelIdeal.main_v43),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.RefValue.res_eq, h0, h1, h2, h3, h4, h5, h6, h7]
  exact ((Cert.KernelIdeal.KValue.result_at_end m ρ c).trans (Cert.Proof.TwoSides.out_eq _ _ _ _ _ _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
